-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S1x128 : Shape := ⟨2, ![1, 128]⟩
abbrev S5000x128 : Shape := ⟨2, ![5000, 128]⟩

abbrev nBuf : Space → Nat
  | .hbm => 27
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S128x128, .bf16⟩
  | .hbm, ⟨23, _⟩ => ⟨S128x128, .bf16⟩
  | .hbm, ⟨24, _⟩ => ⟨S1x128, .f32⟩
  | .hbm, ⟨25, _⟩ => ⟨S1x128, .f32⟩
  | .hbm, ⟨26, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .i1⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MlpSpec.lean ====
/-
  The function both programs compute, stated once over the extended reals.

  A graph has 100000 nodes, each with a row of 128 features. Node `p` first combines its own row with the row
  `neigh p` that sums the messages sent to it:  h p j = 2 · node p j + neigh p j.
  A two-layer perceptron then acts on that row alone:
      out p q = (Σ_k leaky (Σ_j h p j · W1 j k + b1 k) · W2 k q) + b2 q,
  where `leaky x` is `x` when `x > 0` and `s · x` otherwise. The factor 2 and the slope `s` (the single-precision
  number nearest 0.01) are the values of the two bit patterns that both programs carry, so neither is ever evaluated.
  Each output row depends on one input row only: this is why cutting the nodes into slabs of 5000 rows and
  treating the slabs one after another gives the same array as treating all rows at once.
-/
import Idealize.ShloMosaic.PureOps.Ideal
import Idealize.ShloMosaic.Lib.ValueIdx

noncomputable section

open scoped BigOperators

namespace Cert.Mlp

open Idealize.ShloMosaic Idealize.ShloMosaic.ValueIdx

/-- The factor of a node's own row: the value of the pattern of `2.0`. -/
def two : EReal := Ideal.ofBits .f32 0x40000000#32

/-- The leaky rectifier: the identity above zero, the slope `s ≈ 0.01` at and below it. -/
def leaky (x : EReal) : EReal :=
  Scalar.select (Ideal.cmp .ogt x (Ideal.ofBits .f32 0x00000000#32)) x (Ideal.ofBits .f32 0x3C23D70A#32 * x)

/-- One output entry of the perceptron from one input row `h`:
    `(Σ_k leaky (Σ_j h j · W1 j k + b1 k) · W2 k q) + b2 q`. -/
def mlpRow (h : Fin 128 → EReal) (W1 : Fin 128 → Fin 128 → EReal) (b1 : Fin 128 → EReal)
    (W2 : Fin 128 → Fin 128 → EReal) (b2 : Fin 128 → EReal) (q : Fin 128) : EReal :=
  (∑ k : Fin 128, leaky ((∑ j : Fin 128, h j * W1 j k) + b1 k) * W2 k q) + b2 q

/-- The output entry `(p, q)` from the whole arrays: the perceptron on the row `2 · node p + neigh p`. -/
def mlpAt (node neigh : (⟨2, ![100000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (p : Fin 100000) (q : Fin 128) : EReal :=
  mlpRow (fun j => two * node (ix2 p j) + neigh (ix2 p j)) (fun j k => W1 (ix2 j k)) (fun k => b1 (ix1 k))
    (fun k c => W2 (ix2 k c)) (fun c => b2 (ix1 c)) q

/-- The whole output array, entry by entry. -/
def mlpArr (node neigh : (⟨2, ![100000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![100000, 128]⟩ : Shape).Idx → EReal :=
  fun i => mlpAt node neigh W1 b1 W2 b2 (i 0) (i 1)

end Cert.Mlp

end
-- ==== Proof.KernelBody.lean ====
/-
  What one call of the kernel body stores, read at one entry.

  The body holds a slab of 5000 node rows `x0`, the matching slab `x1` of summed messages, the two 128 × 128 weight
  matrices `x2`, `x4` and the two biases `x3`, `x5` as 1 × 128 rows. It stores, at row `p` and column `q`,
      (Σ_k leaky (Σ_j (2 · x0 p j + x1 p j) · x2 j k + x3 0 k) · x4 k q) + x5 0 q :
  each matrix product into a zero accumulator is the plain sum over the contracted axis, a change of float format is
  the identity, and a 1 × 128 row spread over 5000 rows reads its column.
-/
import proofs.«164611_j20005957664841_2_alg».proof.Proof.Gen.KernelIdeal.Skeleton
import proofs.«164611_j20005957664841_2_alg».proof.Proof.MlpSpec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Body

open Cert.KernelIdeal Cert.KernelIdeal.Gen Idealize.ShloMosaic Idealize.ShloMosaic.ValueIdx Cert.Mlp

/-- The left operand's index at output `j` and contraction index `κ`: row of `j`, column `κ`. -/
theorem lhs_0 (j : S5000x128.Idx) (κ : dot_S5000x128_S128x128_S5000x128_1_0_0_1_n_n.contr.Idx) : (dot_S5000x128_S128x128_S5000x128_1_0_0_1_n_n.lhsIdx j κ 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (κ : dot_S5000x128_S128x128_S5000x128_1_0_0_1_n_n.contr.Idx) : (dot_S5000x128_S128x128_S5000x128_1_0_0_1_n_n.lhsIdx j κ 1).val = (κ ⟨0, by decide⟩).val :=
  dot_S5000x128_S128x128_S5000x128_1_0_0_1_n_n.lhsIdx_val_of_single rfl j κ
/-- The right operand's index: row `κ`, column of `j`. -/
theorem rhs_0 (j : S5000x128.Idx) (κ : dot_S5000x128_S128x128_S5000x128_1_0_0_1_n_n.contr.Idx) : (dot_S5000x128_S128x128_S5000x128_1_0_0_1_n_n.rhsIdx j κ 0).val = (κ ⟨0, by decide⟩).val :=
  dot_S5000x128_S128x128_S5000x128_1_0_0_1_n_n.rhsIdx_val_of_single rfl j κ
theorem rhs_1 (j : S5000x128.Idx) (κ : dot_S5000x128_S128x128_S5000x128_1_0_0_1_n_n.contr.Idx) : (dot_S5000x128_S128x128_S5000x128_1_0_0_1_n_n.rhsIdx j κ 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000, 128] × [128, 128] product into a zero accumulator, at `(p, q)`: `Σ_k lhs p k · rhs k q`. -/
theorem matmul_at {φ₁ φ₂ : FTy} (lhs : FVec Ideal S5000x128 φ₁) (rhs : FVec Ideal S128x128 φ₂) (p : Fin 5000) (q : Fin 128) :
    FloatOps.matmul dot_S5000x128_S128x128_S5000x128_1_0_0_1_n_n none lhs rhs (constant (F := Ideal) S5000x128 .f32 0x00000000#32) (ix2 p q)
      = ∑ k : Fin 128, lhs (ix2 p k) * rhs (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The rectifier as the body spells it — compare with zero, multiply by the slope, select, change format —
    read at an index is `leaky` of the entry. -/
theorem leaky_at (A : FVec Ideal S5000x128 .f32) (h : FTy.bits .bf16 < FTy.bits .f32) (i : S5000x128.Idx) :
    truncf .bf16 (select (cmpf .ogt A (broadcast S5000x128 (FloatOps.ofBits (F := Ideal) .f32 0x00000000#32))) A
      (mulf (broadcast S5000x128 (FloatOps.ofBits (F := Ideal) .f32 0x3C23D70A#32)) A)) h i = leaky (A i) := rfl

/-- THE STORED VALUE at `(p, q)`: the perceptron of `MlpSpec` on the row `2 · x0 p + x1 p`, with the weights and
    biases the body holds. -/
theorem pay_at (x0 x1 : FVec Ideal S5000x128 .f32) (x2 : FVec Ideal S128x128 .bf16) (x3 : FVec Ideal S1x128 .f32)
    (x4 : FVec Ideal S128x128 .bf16) (x5 : FVec Ideal S1x128 .f32) (p : Fin 5000) (q : Fin 128) :
    k0_pay1 (F := Ideal) x0 x1 x2 x3 x4 x5 (ix2 p q)
      = mlpRow (fun j => two * x0 (ix2 p j) + x1 (ix2 p j)) (fun j k => x2 (ix2 j k)) (fun k => x3 (ix2 (0 : Fin 1) k))
          (fun k c => x4 (ix2 k c)) (fun c => x5 (ix2 (0 : Fin 1) c)) q := by
  unfold k0_pay1 mlpRow
  simp only [shapeCast_self]
  refine congrArg₂ (· + ·) ((matmul_at _ _ p q).trans (Finset.sum_congr rfl fun k _ => ?_)) (broadcastTo_1b_ab_apply x5 _ p q)
  refine congrArg (· * x4 (ix2 k q)) ?_
  refine (leaky_at _ _ _).trans (congrArg leaky ?_)
  exact congrArg₂ (· + ·) ((matmul_at _ _ p k).trans (Finset.sum_congr rfl fun j _ => rfl)) (broadcastTo_1b_ab_apply x3 _ p k)

end Cert.KernelIdeal.Body

end
-- ==== Proof.RegionInputs.lean ====
/-
  What the kernel's launch finds in the arrays its windows read.

  Before the launch the host has computed five arrays from the arguments: the summed messages `neigh` (each edge's
  source row gathered from the node features — a negative source index first wrapped around by adding the number of
  nodes —, the edge's own features added, and the rows summed into the edges' destination nodes), the two weight
  matrices changed to a narrower float format (no change of value over the extended reals), and the two biases laid
  out as 1 × 128 rows. The node features themselves are read as launched.
-/
import proofs.«164611_j20005957664841_2_alg».proof.Proof.Gen.KernelIdeal.Frame
import Idealize.ShloMosaic.Lib.StableHlo.Run
import Idealize.ShloMosaic.PureOps.Ideal
import Idealize.ShloMosaic.Lib.Pipeline.Value
import Idealize.ShloMosaic.Lib.ValueIdx
import Idealize.ShloMosaic.Lib.ValueLayout

noncomputable section

namespace Cert.KernelIdeal.Inputs

open Cert.KernelIdeal Cert.KernelIdeal.Gen Idealize.ShloMosaic Idealize.ShloMosaic.TcCoe Idealize.SL.Sem
open Idealize.ShloMosaic.StableHlo Idealize.ShloMosaic.ValueIdx

/-- The summed messages: row `d` is the sum, over the edges `e` with destination `d`, of
    `node (src e) + edge e`, as the host's gather, add and accumulating scatter compute it from a zero array. -/
def neigh (node : (⟨S100000x128, .f32⟩ : BufTy).Contents (Elt Ideal)) (edge : (⟨S600000x128, .f32⟩ : BufTy).Contents (Elt Ideal))
    (src dst : (⟨S600000, .i32⟩ : BufTy).Contents (Elt Ideal)) : (⟨S100000x128, .f32⟩ : BufTy).Contents (Elt Ideal) :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (addf
      (Host.gather gather_S100000x128_S600000x1_S600000x128_1_0_n_n_0_1_1128 node
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src)))
      edge)

variable (m : (ℓ : Loc nD τ sig) → Buf (Elt Ideal) ℓ)

/-- Window 1's array holds the summed messages of the arguments. -/
theorem V_neigh (c : Dev nD) : (V m c main_v10 : S100000x128.Idx → EReal)
    = neigh (m ((c : Thread nD τ).loc main_arg0)) (m ((c : Thread nD τ).loc main_arg1)) (m ((c : Thread nD τ).loc main_arg2)) (m ((c : Thread nD τ).loc main_arg3)) := by
  dsimp only [Gen.V, Gen.hostOps0]
  after_results
  rfl

/-- Window 2's array holds the first weight matrix, entry by entry. -/
theorem V_W1 (c : Dev nD) (j k : Fin 128) : (V m c main_v11 : S128x128.Idx → EReal) (ix2 j k) = m ((c : Thread nD τ).loc main_arg4) (ix2 j k) := by
  have e : (V m c main_v11 : S128x128.Idx → EReal) = truncf (F := Ideal) (s := S128x128) (φ := .f32) .bf16 (m ((c : Thread nD τ).loc main_arg4)) bitsLt_bf16_f32 := by
    dsimp only [Gen.V, Gen.hostOps0]
    after_results
  rw [e]; rfl

/-- Window 4's array holds the second weight matrix. -/
theorem V_W2 (c : Dev nD) (j k : Fin 128) : (V m c main_v12 : S128x128.Idx → EReal) (ix2 j k) = m ((c : Thread nD τ).loc main_arg6) (ix2 j k) := by
  have e : (V m c main_v12 : S128x128.Idx → EReal) = truncf (F := Ideal) (s := S128x128) (φ := .f32) .bf16 (m ((c : Thread nD τ).loc main_arg6)) bitsLt_bf16_f32 := by
    dsimp only [Gen.V, Gen.hostOps0]
    after_results
  rw [e]; rfl

/-- Window 3's array holds the first bias as one row: entry `(0, k)` is `b1 k`. -/
theorem V_b1 (c : Dev nD) (k : Fin 128) : (V m c main_v13 : S1x128.Idx → EReal) (ix2 (0 : Fin 1) k) = m ((c : Thread nD τ).loc main_arg5) (ix1 k) := by
  have e : (V m c main_v13 : S1x128.Idx → EReal) = shapeCast S1x128 (m ((c : Thread nD τ).loc main_arg5)) shapeCasts_S128_S1x128 := by
    dsimp only [Gen.V, Gen.hostOps0]
    after_results
    rfl
  rw [e]
  exact shapeCast_a_1a_apply _ shapeCasts_S128_S1x128 (0 : Fin 1) k

/-- Window 5's array holds the second bias as one row. -/
theorem V_b2 (c : Dev nD) (k : Fin 128) : (V m c main_v14 : S1x128.Idx → EReal) (ix2 (0 : Fin 1) k) = m ((c : Thread nD τ).loc main_arg7) (ix1 k) := by
  have e : (V m c main_v14 : S1x128.Idx → EReal) = shapeCast S1x128 (m ((c : Thread nD τ).loc main_arg7)) shapeCasts_S128_S1x128 := by
    dsimp only [Gen.V, Gen.hostOps0]
    after_results
    rfl
  rw [e]
  exact shapeCast_a_1a_apply _ shapeCasts_S128_S1x128 (0 : Fin 1) k

end Cert.KernelIdeal.Inputs

end
-- ==== Proof.KernelValue.lean ====
/-
  From the kernel's twenty calls to its whole result array.

  The launch cuts the 100000 node rows into twenty slabs of 5000; call `t` reads slab `t` of the node features and of
  the summed messages (rows `5000 · t + p`), the whole weight matrices and bias rows, and writes slab `t` of the result.
  By the body's stored value (`Body.pay_at`) entry `(p, q)` of what call `t` writes is the perceptron of `MlpSpec` on
  row `5000 · t + p`: an output row depends on its own input row only, so every call writes its slab of ONE array,
  `mlpArr` of the arguments. The slabs cover all rows (row `r` lies in slab `r / 5000`), so the result IS that array.
-/
import proofs.«164611_j20005957664841_2_alg».proof.Proof.Gen.KernelIdeal.Value
import proofs.«164611_j20005957664841_2_alg».proof.Proof.KernelBody
import proofs.«164611_j20005957664841_2_alg».proof.Proof.RegionInputs

noncomputable section

namespace Cert.KernelIdeal.Arr

open Cert.KernelIdeal Cert.KernelIdeal.Gen Idealize.ShloMosaic Idealize.ShloMosaic.TcCoe Idealize.SL.Sem
open Idealize.ShloMosaic.ValueIdx Cert.Mlp Cert.KernelIdeal.Inputs
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices, decided over the twenty calls: the two row-slab inputs and the output move with the call
    along the rows; the weights and biases stay at block zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of slab `t` is a row of the array. -/
theorem row_lt (t : Fin cfg0.N) (p : Fin 5000) : t.val * 5000 + p.val < 100000 := by
  have ht : t.val < 20 := lt_of_lt_of_eq t.isLt N_0
  have hp := p.isLt
  omega

/-- The array row of row `p` of slab `t`. -/
abbrev row (t : Fin cfg0.N) (p : Fin 5000) : Fin 100000 := ⟨t.val * 5000 + p.val, row_lt t p⟩

/-! ## The blocks the calls read -/

/-- Slab `t` of the node features, at `(p, j)`: the argument at row `5000 · t + p`. -/
theorem blk_node (c : Dev nD) (t : Fin cfg0.N) (p : Fin 5000) (j : Fin 128) :
    iblk m c 0 t (ix2 p j) = m ((c : Thread nD τ).loc main_arg0) (ix2 (row t p) j) := by
  show V m c main_arg0 (((cfg0.win 0).blk t).view.emb (ix2 p j)) = _
  rw [V_main_arg0]
  refine congrArg (m ((c : Thread nD τ).loc main_arg0)) (funext fun a => Fin.ext ?_)
  obtain ⟨e0, e1, -⟩ := index_facts t
  match a with
  | ⟨0, _⟩ => show win0_0.index t (0 : Fin 2) * 5000 + 1 * p.val = t.val * 5000 + p.val; rw [e0]; omega
  | ⟨1, _⟩ => show win0_0.index t (1 : Fin 2) * 128 + 1 * j.val = j.val; rw [e1]; omega

/-- Slab `t` of the summed messages, at `(p, j)`. -/
theorem blk_neigh (c : Dev nD) (t : Fin cfg0.N) (p : Fin 5000) (j : Fin 128) :
    iblk m c 1 t (ix2 p j) = neigh (m ((c : Thread nD τ).loc main_arg0)) (m ((c : Thread nD τ).loc main_arg1))
      (m ((c : Thread nD τ).loc main_arg2)) (m ((c : Thread nD τ).loc main_arg3)) (ix2 (row t p) j) := by
  show (V m c main_v10 : S100000x128.Idx → EReal) (((cfg0.win 1).blk t).view.emb (ix2 p j)) = _
  rw [V_neigh]
  refine congrArg (neigh _ _ _ _) (funext fun a => Fin.ext ?_)
  obtain ⟨-, -, e0, e1, -⟩ := index_facts t
  match a with
  | ⟨0, _⟩ => show win0_1.index t (0 : Fin 2) * 5000 + 1 * p.val = t.val * 5000 + p.val; rw [e0]; omega
  | ⟨1, _⟩ => show win0_1.index t (1 : Fin 2) * 128 + 1 * j.val = j.val; rw [e1]; omega

/-- The whole first weight matrix, at `(j, k)`. -/
theorem blk_W1 (c : Dev nD) (t : Fin cfg0.N) (j k : Fin 128) :
    iblk m c 2 t (ix2 j k) = m ((c : Thread nD τ).loc main_arg4) (ix2 j k) := by
  show (V m c main_v11 : S128x128.Idx → EReal) (((cfg0.win 2).blk t).view.emb (ix2 j k)) = _
  rw [← V_W1 m c j k]
  refine congrArg (V m c main_v11 : S128x128.Idx → EReal) (funext fun a => Fin.ext ?_)
  obtain ⟨-, -, -, -, e0, e1, -⟩ := index_facts t
  match a with
  | ⟨0, _⟩ => show win0_2.index t (0 : Fin 2) * 128 + 1 * j.val = j.val; rw [e0]; omega
  | ⟨1, _⟩ => show win0_2.index t (1 : Fin 2) * 128 + 1 * k.val = k.val; rw [e1]; omega

/-- The first bias row, at `(0, k)`. -/
theorem blk_b1 (c : Dev nD) (t : Fin cfg0.N) (k : Fin 128) :
    iblk m c 3 t (ix2 (0 : Fin 1) k) = m ((c : Thread nD τ).loc main_arg5) (ix1 k) := by
  show (V m c main_v13 : S1x128.Idx → EReal) (((cfg0.win 3).blk t).view.emb (ix2 (0 : Fin 1) k)) = _
  rw [← V_b1 m c k]
  refine congrArg (V m c main_v13 : S1x128.Idx → EReal) (funext fun a => Fin.ext ?_)
  obtain ⟨-, -, -, -, -, -, e0, e1, -⟩ := index_facts t
  match a with
  | ⟨0, _⟩ => show win0_3.index t (0 : Fin 2) * 1 + 1 * 0 = 0; rw [e0]
  | ⟨1, _⟩ => show win0_3.index t (1 : Fin 2) * 128 + 1 * k.val = k.val; rw [e1]; omega

/-- The whole second weight matrix, at `(k, q)`. -/
theorem blk_W2 (c : Dev nD) (t : Fin cfg0.N) (k q : Fin 128) :
    iblk m c 4 t (ix2 k q) = m ((c : Thread nD τ).loc main_arg6) (ix2 k q) := by
  show (V m c main_v12 : S128x128.Idx → EReal) (((cfg0.win 4).blk t).view.emb (ix2 k q)) = _
  rw [← V_W2 m c k q]
  refine congrArg (V m c main_v12 : S128x128.Idx → EReal) (funext fun a => Fin.ext ?_)
  obtain ⟨-, -, -, -, -, -, -, -, e0, e1, -⟩ := index_facts t
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The second bias row, at `(0, q)`. -/
theorem blk_b2 (c : Dev nD) (t : Fin cfg0.N) (q : Fin 128) :
    iblk m c 5 t (ix2 (0 : Fin 1) q) = m ((c : Thread nD τ).loc main_arg7) (ix1 q) := by
  show (V m c main_v14 : S1x128.Idx → EReal) (((cfg0.win 5).blk t).view.emb (ix2 (0 : Fin 1) q)) = _
  rw [← V_b2 m c q]
  refine congrArg (V m c main_v14 : S1x128.Idx → EReal) (funext fun a => Fin.ext ?_)
  obtain ⟨-, -, -, -, -, -, -, -, -, -, e0, e1, -⟩ := index_facts t
  match a with
  | ⟨0, _⟩ => show win0_5.index t (0 : Fin 2) * 1 + 1 * 0 = 0; rw [e0]
  | ⟨1, _⟩ => show win0_5.index t (1 : Fin 2) * 128 + 1 * q.val = q.val; rw [e1]; omega

/-- Entry `(p, q)` of the output's slab `t` sits at `(5000 · t + p, q)` of the result array. -/
theorem out_emb (t : Fin cfg0.N) (p : Fin 5000) (q : Fin 128) :
    ((cfg0.win 6).blk t).view.emb (ix2 p q) = (ix2 (row t p) q : S100000x128.Idx) := by
  refine funext fun a => Fin.ext ?_
  obtain ⟨-, -, -, -, -, -, -, -, -, -, -, -, e0, e1⟩ := index_facts t
  match a with
  | ⟨0, _⟩ => show win0_6.index t (0 : Fin 2) * 5000 + 1 * p.val = t.val * 5000 + p.val; rw [e0]; omega
  | ⟨1, _⟩ => show win0_6.index t (1 : Fin 2) * 128 + 1 * q.val = q.val; rw [e1]; omega

/-! ## What a call writes, and the whole array -/

/-- The result array: the perceptron on `2 · node + neigh`, row by row. -/
def result (c : Dev nD) : S100000x128.Idx → EReal :=
  mlpArr (m ((c : Thread nD τ).loc main_arg0))
    (neigh (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5)) (m ((c : Thread nD τ).loc main_arg6)) (m ((c : Thread nD τ).loc main_arg7))

/-- Its entry `(P, q)`. -/
theorem result_at (c : Dev nD) (P : Fin 100000) (q : Fin 128) :
    result m c (ix2 P q) = mlpAt (m ((c : Thread nD τ).loc main_arg0))
      (neigh (m ((c : Thread nD τ).loc main_arg0)) (m ((c : Thread nD τ).loc main_arg1)) (m ((c : Thread nD τ).loc main_arg2)) (m ((c : Thread nD τ).loc main_arg3)))
      (m ((c : Thread nD τ).loc main_arg4)) (m ((c : Thread nD τ).loc main_arg5)) (m ((c : Thread nD τ).loc main_arg6)) (m ((c : Thread nD τ).loc main_arg7)) P q := rfl

/-- The perceptron's entry depends on the row, the weights and the biases only through their values. -/
theorem mlpRow_congr {h h' : Fin 128 → EReal} {W1 W1' : Fin 128 → Fin 128 → EReal} {b1 b1' : Fin 128 → EReal}
    {W2 W2' : Fin 128 → Fin 128 → EReal} {b2 b2' : Fin 128 → EReal} (eh : h = h') (e1 : W1 = W1') (eb1 : b1 = b1')
    (e2 : W2 = W2') (eb2 : b2 = b2') (q : Fin 128) : mlpRow h W1 b1 W2 b2 q = mlpRow h' W1' b1' W2' b2' q := by
  subst eh e1 eb1 e2 eb2; rfl

/-- WHAT CALL `t` WRITES BACK is slab `t` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_offsets]
  simp only [View.ld_unit_zero (S := S5000x128) zero_offsets, View.ld_unit_zero (S := S128x128) zero_offsets,
    View.ld_unit_zero (S := S1x128) zero_offsets]
  funext y
  obtain ⟨p, q, rfl⟩ : ∃ (p : Fin 5000) (q : Fin 128), y = ix2 p q := ⟨y 0, y 1, eq_ix2 y⟩
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  rw [out_emb, result_at]
  unfold mlpAt
  refine (Body.pay_at _ _ _ _ _ _ p q).trans ?_
  exact mlpRow_congr (funext fun j => by rw [blk_node, blk_neigh]) (funext fun j => funext fun k => blk_W1 m c t j k)
    (funext fun k => blk_b1 m c t k) (funext fun k => funext fun q => blk_W2 m c t k q) (funext fun q => blk_b2 m c t q) q

/-- An index of the array lies in slab `t` iff each coordinate is in the slab's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v15).slice (win0_6.rect t)).set ↔ _
  rw [View.set_slice_whole, Rect.mem_set_unit]
  exact Iff.rfl

/-- Every row lies in a slab: row `r` in slab `r / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_6 _, ?_⟩
  rw [mem_blk]
  obtain ⟨-, -, -, -, -, -, -, -, -, -, -, -, e0, e1⟩ := index_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]
    show (i 0).val / 5000 * 5000 ≤ (i 0).val ∧ (i 0).val < (i 0).val / 5000 * 5000 + 5000
    omega
  | ⟨1, _⟩ =>
    show win0_6.index _ (1 : Fin 2) * 128 ≤ (i 1).val ∧ (i 1).val < win0_6.index _ (1 : Fin 2) * 128 + 128
    rw [e1]
    omega

/-- THE ARRAY after the run is `result`. -/
theorem final (c : Dev nD) : (dats m 0 c).arrAt 6 cfg0.N = result m c :=
  (dats m 0 c).arrAt_eq_of_cover 6 (result m c) (fun t _ => flushed_eq m c t) cover

/-- The kernel's run: every execution ends with the result array at `result`, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Arr

end
-- ==== Proof.RefValue.lean ====
/-
  The reference computes the function of `MlpSpec`.

  Read one operation at a time, the reference's result at `(p, q)` is the second matrix product's entry plus the
  bias `b2 q`; the product's left operand at `(p, k)` is the rectifier of the first layer's entry, and that entry is
  `Σ_j (2 · node p j + neigh p j) · W1 j k + b1 k`. The array `neigh` — a gather of node rows by the edges' sources,
  the edge features added, summed into the edges' destinations — enters only as a whole array and is never opened.
-/
import proofs.«164611_j20005957664841_2_alg».proof.Proof.Gen.ReferenceIdeal.Read
import proofs.«164611_j20005957664841_2_alg».proof.Proof.MlpSpec
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.Mlp

variable (x0 : (⟨S100000x128, .f32⟩ : BufTy).Contents (Elt Ideal)) (x1 : (⟨S600000x128, .f32⟩ : BufTy).Contents (Elt Ideal))
  (x2 x3 : (⟨S600000, .i32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal))

/-- The first layer before the rectifier, at `(p, k)`: `Σ_j (2 · node p j + neigh p j) · W1 j k + b1 k`. -/
theorem layer1_at (p : Fin 100000) (k : Fin 128) :
    val_main_v17 (F := Ideal) x0 x1 x2 x3 x4 x5 (ix2 p k)
      = (∑ j : Fin 128, (two * x0 (ix2 p j) + val_main_v10 (F := Ideal) x0 x1 x2 x3 (ix2 p j)) * x4 (ix2 j k)) + x5 (ix1 k) := by
  rw [val_main_v17_apply, val_main_v14_apply, val_main_v16_apply, val_main_v15_apply]
  refine congrArg₂ (· + ·) (Finset.sum_congr rfl fun j _ => ?_) (congrArg x5 ?_)
  · have el : lidx_main_v14 (ix2 p k) j = ix2 p j := funext fun a => Fin.ext (by
      match a with
      | ⟨0, _⟩ => rfl
      | ⟨1, _⟩ => rfl)
    have er : ridx_main_v14 (ix2 p k) j = ix2 j k := funext fun a => Fin.ext (by
      match a with
      | ⟨0, _⟩ => rfl
      | ⟨1, _⟩ => rfl)
    rw [el, er, val_main_v13_apply, val_main_v12_apply, val_main_v11_apply, val_main_cst_1_apply]
    rfl
  · exact funext fun a => Fin.ext (by
      match a with
      | ⟨0, _⟩ => rfl)

/-- The rectified first layer, at `(p, k)`. -/
theorem hidden_at (p : Fin 100000) (k : Fin 128) :
    val_main_v22 (F := Ideal) x0 x1 x2 x3 x4 x5 (ix2 p k)
      = leaky ((∑ j : Fin 128, (two * x0 (ix2 p j) + val_main_v10 (F := Ideal) x0 x1 x2 x3 (ix2 p j)) * x4 (ix2 j k)) + x5 (ix1 k)) := by
  rw [val_main_v22_apply, val_main_v19_apply, val_main_v21_apply, val_main_v18_apply, val_main_cst_2_apply,
    val_main_v20_apply, val_main_cst_3_apply, layer1_at]
  rfl

/-- THE REFERENCE'S RESULT at `(p, q)` is the perceptron of `MlpSpec` on the row `2 · node p + neigh p`. -/
theorem result_at (p : Fin 100000) (q : Fin 128) :
    val_main_v26 (F := Ideal) x0 x1 x2 x3 x4 x5 x6 x7 (ix2 p q)
      = mlpAt x0 (val_main_v10 (F := Ideal) x0 x1 x2 x3) x4 x5 x6 x7 p q := by
  rw [val_main_v26_apply, val_main_v23_apply, val_main_v25_apply, val_main_v24_apply]
  unfold mlpAt mlpRow
  refine congrArg₂ (· + ·) (Finset.sum_congr rfl fun k _ => ?_) (congrArg x7 ?_)
  · have el : lidx_main_v23 (ix2 p q) k = ix2 p k := funext fun a => Fin.ext (by
      match a with
      | ⟨0, _⟩ => rfl
      | ⟨1, _⟩ => rfl)
    have er : ridx_main_v23 (ix2 p q) k = ix2 k q := funext fun a => Fin.ext (by
      match a with
      | ⟨0, _⟩ => rfl
      | ⟨1, _⟩ => rfl)
    rw [el, er, hidden_at]
  · exact funext fun a => Fin.ext (by
      match a with
      | ⟨0, _⟩ => rfl)

/-- The reference's result array IS `mlpArr` of the arguments and the summed messages. -/
theorem result_eq :
    val_main_v26 (F := Ideal) x0 x1 x2 x3 x4 x5 x6 x7 = mlpArr x0 (val_main_v10 (F := Ideal) x0 x1 x2 x3) x4 x5 x6 x7 := by
  funext i
  obtain ⟨p, q, rfl⟩ : ∃ (p : Fin 100000) (q : Fin 128), i = ix2 p q := ⟨i 0, i 1, eq_ix2 i⟩
  exact result_at x0 x1 x2 x3 x4 x5 x6 x7 p q

end Cert.ReferenceIdeal.RefValue

end
-- ==== Proof.lean ====
/-
  A graph layer: every node adds twice its own feature row to the sum of the messages it receives, and a two-layer
  perceptron with a leaky rectifier acts on the result. The kernel computes the perceptron on slabs of 5000 node rows,
  one call per slab, after the host has summed the messages; the reference computes it on all rows at once with two
  whole matrix products.

  Over the extended reals the two programs compute ONE function of the arguments (`Cert.Mlp.mlpArr`): a matrix
  product into a zero accumulator is the sum over the contracted axis on both sides, a change of float format is the
  identity, the constants 2 and 0.01 are the same bit patterns on both sides, and an output row depends on its own
  input row only, so the slabs of the kernel's result are the slabs of the reference's. The summed messages are
  produced by the same host operations in both programs and are carried as one array, never opened. No law used here
  needs the inputs to be finite: the precondition is not opened.

  `Arr.run`: the kernel ends with its result at `mlpArr` of the arguments and their summed messages.
  `RefValue.result_eq`: the reference's composed term is `mlpArr` of the same.
-/
import proofs.«164611_j20005957664841_2_alg».proof.Defs
import proofs.«164611_j20005957664841_2_alg».proof.Proof.Gen.Kernel
import proofs.«164611_j20005957664841_2_alg».proof.Proof.Gen.Kernel.Frame
import proofs.«164611_j20005957664841_2_alg».proof.Proof.Gen.KernelIdeal
import proofs.«164611_j20005957664841_2_alg».proof.Proof.Gen.KernelIdeal.Frame
import proofs.«164611_j20005957664841_2_alg».proof.Proof.Gen.KernelIdeal.Value
import proofs.«164611_j20005957664841_2_alg».proof.Proof.Gen.ReferenceIdeal
import proofs.«164611_j20005957664841_2_alg».proof.Proof.Gen.ReferenceIdeal.Run
import proofs.«164611_j20005957664841_2_alg».proof.Proof.Gen.ReferenceIdeal.Read
import proofs.«164611_j20005957664841_2_alg».proof.Proof.Gen.Pre_finite_inputs
import proofs.«164611_j20005957664841_2_alg».proof.Proof.KernelValue
import proofs.«164611_j20005957664841_2_alg».proof.Proof.RefValue

noncomputable section

namespace Cert.Proof

open Idealize.ShloMosaic Idealize.ShloMosaic.TcCoe Idealize.SL.Sem

/-- The summed messages are one array in both programs: the same gather, add and accumulating scatter of the same
    arguments, operation for operation. -/
theorem neigh_eq (x0 : (⟨Cert.ReferenceIdeal.S100000x128, .f32⟩ : BufTy).Contents (Elt Ideal))
    (x1 : (⟨Cert.ReferenceIdeal.S600000x128, .f32⟩ : BufTy).Contents (Elt Ideal))
    (x2 x3 : (⟨Cert.ReferenceIdeal.S600000, .i32⟩ : BufTy).Contents (Elt Ideal)) :
    Cert.KernelIdeal.Inputs.neigh x0 x1 x2 x3 = Cert.ReferenceIdeal.Read.val_main_v10 (F := Ideal) x0 x1 x2 x3 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the result at `mlpArr` of the arguments and their summed
    messages. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v26_eq, Cert.ReferenceIdeal.RefValue.result_eq, h0, h1, h2, h3, h4, h5, h6, h7,
    ← neigh_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
